-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8192 : Shape := ⟨1, ![8192]⟩
abbrev S8193x128 : Shape := ⟨2, ![8193, 128]⟩
abbrev S_ : Shape := ⟨0, ![]⟩

class Facts : Prop where
  bcast_S_S8193x128 : S_.BroadcastsInDim S8193x128 (![] : Fin 0 → Fin S8193x128.rank)
  reducesTo_S8193x128_S_d0_1 : S8193x128.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : IVec S8192 32) (main_arg1 : FVec F S8193x128 .f32) : IVec S_ 1 :=
  let main_v0 : FVec F S8193x128 .f32 := Host.absf main_arg1
  let main_cst : FVec F S_ .f32 := constant S_ .f32 0x7F800000#32
  let main_v1 : FVec F S8193x128 .f32 := broadcastInDim S8193x128 ![] bcast_S_S8193x128 main_cst
  let main_v2 : IVec S8193x128 1 := cmpf .olt main_v0 main_v1
  let main_c : IVec S_ 1 := constantI S_ 1 1#1
  let main_v3 : IVec S_ 1 := (fun x v => Host.reduce IntOp.andi x v reducesTo_S8193x128_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg0 main_v4
  let main_c_1 : IVec S_ 32 := constantI S_ 32 8191#32
  let main_v6 : IVec S8192 32 := broadcastInDim S8192 ![] bcast_S_S8192 main_c_1
  let main_v7 : IVec S8192 1 := cmpi .sle main_arg0 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192 : Shape := ⟨1, ![8192]⟩
abbrev S8193x128 : Shape := ⟨2, ![8193, 128]⟩
abbrev S1x8192x128 : Shape := ⟨3, ![1, 8192, 128]⟩
abbrev S256 : Shape := ⟨1, ![256]⟩
abbrev S256x128 : Shape := ⟨2, ![256, 128]⟩
abbrev S_ : Shape := ⟨0, ![]⟩
abbrev S1x256x128 : Shape := ⟨3, ![1, 256, 128]⟩

abbrev nBuf : Table → Nat
  | .hbm => 3
  | .local .scVector .vmem => 2
  | _ => 0

abbrev bufTy : (tb : Table) → Fin (nBuf tb) → BufTy
  | .hbm, ⟨0, _⟩ => ⟨S8192, .i32⟩
  | .hbm, ⟨1, _⟩ => ⟨S8193x128, .f32⟩
  | .hbm, ⟨2, _⟩ => ⟨S1x8192x128, .f32⟩
  | .local .scVector .vmem, ⟨0, _⟩ => ⟨S256, .i32⟩
  | .local .scVector .vmem, ⟨1, _⟩ => ⟨S256x128, .f32⟩
  | _, _ => ⟨S8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 3 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_4_r1 : BitVec 32 := 0#32
  ![0, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S8193x128_S8193x128_0_0 : ∀ a, (![0, 0] : Fin 2 → Nat) a + S8193x128.size a ≤ S8193x128.size a
  gathers_S8193x128_S256x128 : S8193x128.Gathers 0 S256x128
  squeezes_S1x256x128_S256x128 : S1x256x128.Squeezes S256x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S8192.size a
  k0_off2_inb : ∀ i : grid0.Coords, ∀ a, (k0_off2 i) a + S1x256x128.size a ≤ S1x8192x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S8192 : Shape := ⟨1, ![8192]⟩
abbrev S8193x128 : Shape := ⟨2, ![8193, 128]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x128 : Shape := ⟨2, ![8192, 128]⟩
abbrev S1x8192x128 : Shape := ⟨3, ![1, 8192, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8193x128, .f32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S8192x1, .i32⟩
  | .hbm, ⟨10, _⟩ => ⟨S1, .i32⟩
  | .hbm, ⟨11, _⟩ => ⟨S_, .i32⟩
  | .hbm, ⟨12, _⟩ => ⟨S8192x1, .i32⟩
  | .hbm, ⟨13, _⟩ => ⟨S8192x1, .i1⟩
  | .hbm, ⟨14, _⟩ => ⟨S1x1, .i32⟩
  | .hbm, ⟨15, _⟩ => ⟨S8192x1, .i32⟩
  | .hbm, ⟨16, _⟩ => ⟨S8192x1, .i1⟩
  | .hbm, ⟨17, _⟩ => ⟨S8192x1, .i1⟩
  | .hbm, ⟨18, _⟩ => ⟨S_, .i1⟩
  | .hbm, ⟨19, _⟩ => ⟨S8192, .i1⟩
  | .hbm, ⟨20, _⟩ => ⟨S8192x128, .f32⟩
  | .hbm, ⟨21, _⟩ => ⟨S8192x128, .i1⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S1x8192x128, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x128_0 : S8192.BroadcastsInDim S8192x128 (![0] : Fin 1 → Fin S8192x128.rank)
  bcast_S_S8192x128 : S_.BroadcastsInDim S8192x128 (![] : Fin 0 → Fin S8192x128.rank)
  bcast_S8192x128_S1x8192x128_1_2 : S8192x128.BroadcastsInDim S1x8192x128 (![1, 2] : Fin 2 → Fin S1x8192x128.rank)
  gather_S8193x128_S8192x1_S8192x128_1_0_n_n_0_1_1128_wf : GatherDims.WF S8193x128 S8192x1 S8192x128 [1] [0] [] [0] [] 1 ![1, 128]

variable [Facts₀]

def gather_S8193x128_S8192x1_S8192x128_1_0_n_n_0_1_1128 : GatherDims S8193x128 S8192x1 S8192x128 where
  offsetDims := [1]
  collapsedSliceDims := [0]
  operandBatchingDims := []
  startIndicesBatchingDims := []
  startIndexMap := [0]
  indexVectorDim := 1
  sliceSizes := ![1, 128]
  wf := gather_S8193x128_S8192x1_S8192x128_1_0_n_n_0_1_1128_wf

class Facts : Prop extends Facts₀ where

variable [Facts]
-- ==== Proof.Spec.lean ====
/-
  The function both programs compute, stated once over literal shapes: a lookup of rows.
  From a list `ts` of 8192 row numbers and a table `tab` of 8193 rows of 128 numbers, the result has one leading
  unit axis, and its entry `(0, r, j)` is entry `j` of the table's row number `ts r`. A row number is read as the
  natural number its word denotes; one past the table's last row (which the precondition excludes) is read as the last row, so
  that the function is total.
-/
import Idealize.ShloMosaic.PureOps
import Idealize.ShloMosaic.Lib.ValueIdx

namespace Cert.Spec

open Idealize.ShloMosaic Idealize.ShloMosaic.ValueIdx

/-- The list of row numbers, the table, the result. -/
abbrev Sts : Shape := ⟨1, ![8192]⟩
abbrev Stab : Shape := ⟨2, ![8193, 128]⟩
abbrev Sout : Shape := ⟨3, ![1, 8192, 128]⟩

/-- The row of the table a word names: its value as a natural number, at most the last row 8192. -/
def rowOfWord (w : BitVec 32) : Fin 8193 := ⟨min w.toNat 8192, by omega⟩

theorem rowOfWord_val_of_le {w : BitVec 32} (h : w.toNat ≤ 8192) : (rowOfWord w).val = w.toNat := by
  show min w.toNat 8192 = w.toNat
  omega

/-- The looked-up rows: entry `(0, r, j)` of the result is entry `j` of row `ts r` of the table. -/
def gathered {α : Type} (ts : Sts.Idx → BitVec 32) (tab : Stab.Idx → α) : Sout.Idx → α :=
  fun i => tab (ix2 (rowOfWord (ts (ix1 (⟨(i 1).val, (i 1).isLt⟩ : Fin 8192)))) (⟨(i 2).val, (i 2).isLt⟩ : Fin 128))

theorem gathered_apply {α : Type} (ts : Sts.Idx → BitVec 32) (tab : Stab.Idx → α) (u : Fin 1) (r : Fin 8192) (j : Fin 128) :
    gathered ts tab (ix3 u r j) = tab (ix2 (rowOfWord (ts (ix1 r))) j) := rfl

end Cert.Spec
-- ==== Proof.KI.Setup.lean ====
/-
  The lookup kernel as the SparseCore launch theorem sees it, and how its three arrays are dealt to the 32 tiles.
  Tile `i` of SparseCore `c` works on part `2 i + c` of 32: entries [256 (2 i + c), 256 (2 i + c + 1)) of the list
  of row numbers and the same rows of the result. The list and the result are cut into those 32 parts along their
  long axis; the table, which every tile reads whole, is dealt as 32 pieces of its full share. Each tile returns
  its part of the result holding the looked-up rows, so the parts join to the whole result at that function.
-/
import proofs.«202643_g15668040696352_cont_week2b_341_8_alg».proof.Proof.Gen.KernelIdeal
import proofs.«202643_g15668040696352_cont_week2b_341_8_alg».proof.Proof.Gen.KernelIdeal.Skeleton
import proofs.«202643_g15668040696352_cont_week2b_341_8_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev iV : Memref sig .scVector .hbm S8192 .i32 := Memref.whole main_arg0_scv
abbrev xV : Memref sig .scVector .hbm S8193x128 .f32 := Memref.whole main_arg1_scv
abbrev oV : Memref sig .scVector .hbm S1x8192x128 .f32 := Memref.whole main_v0_scv
abbrev sV : Memref sig .scVector .vmem S256 .i32 := Memref.whole cc0_scratch0
abbrev rV : Memref sig .scVector .vmem S256x128 .f32 := Memref.whole cc0_scratch1

/-- What the result holds at the end: the looked-up rows of the launch memory's table at the launch memory's list. -/
def G (d : Dev nD) : Buf (Elt F) (oLoc d) := Cert.Spec.gathered (m (iLoc d)) (m (xLoc d))

/-! ## The 32 parts -/

theorem idiv : 32 ∣ S8192.size 0 := ⟨256, rfl⟩
theorem odiv : 32 ∣ S1x8192x128.size 1 := ⟨256, rfl⟩
abbrev irow (w : Fin 32) : Rect S8192 := Rect.part (s := S8192) (a₀ := 0) idiv w
abbrev orow (w : Fin 32) : Rect S1x8192x128 := Rect.part (s := S1x8192x128) (a₀ := 1) odiv w
abbrev iRowSet (w : Fin 32) : Finset S8192.Idx := ((iV).view.slice (irow w)).set
abbrev oRowSet (w : Fin 32) : Finset S1x8192x128.Idx := ((oV).view.slice (orow w)).set

/-- The part tile `i` of SparseCore `c` works on. -/
def wOf (c : Fin 2) (i : Fin 16) : Fin 32 := ⟨2 * i.val + c.val, by omega⟩

/-- Every part is some tile's, exactly one. -/
def wEquiv : Fin 2 × Fin 16 ≃ Fin 32 where
  toFun p := wOf p.1 p.2
  invFun w := (⟨w.val % 2, Nat.mod_lt _ (by decide)⟩, ⟨w.val / 2, by omega⟩)
  left_inv p := by
    rcases p with ⟨c, i⟩
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

/-- Tile `w`'s share of the table: one of 32 pieces of the full share. -/
abbrev xq (w : Fin 32) : PosShare TreeShare := pieceOf fullShare 32 (by decide) w

variable [FloatOps F]

/-! ## What the handshakes carry -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (w : Fin 32) : sProp 𝕄 := iLoc d ↦[iRowSet w]{fullShare} m (iLoc d)
abbrev xShPts (d : Dev nD) (w : Fin 32) : sProp 𝕄 := xLoc d ↦{xq w} m (xLoc d)
abbrev oRowPts (d : Dev nD) (w : Fin 32) (f : Buf (Elt F) (oLoc d)) : sProp 𝕄 := oLoc d ↦[oRowSet w]{fullShare} f

/-- What a tile is handed for part `w`: its entries of the list, its share of the table, its rows of the result as launched. -/
abbrev tileIn (d : Dev nD) (w : Fin 32) : sProp 𝕄 := iprop(iRowPts m d w ∗ xShPts m d w ∗ oRowPts d w (m (oLoc d)))
/-- What it hands back: the same, its rows of the result now the looked-up rows. -/
abbrev tileOut (d : Dev nD) (w : Fin 32) : sProp 𝕄 := iprop(iRowPts m d w ∗ xShPts m d w ∗ oRowPts d w (G m d))

/-- The one call: a SparseCore takes its sixteen tiles' parts and brings them back. -/
def P : (K (F := F)).Pay (nD := nD) (Val := Elt F) (Name := ℕ) (U := UU) where
  st := fun q d c => match q with
    | 0 => bigSep Finset.univ fun i : Fin 16 => tileIn m d (wOf (Fin.cast nCore_zero c) i)
  dn := fun q d c => match q with
    | 0 => bigSep Finset.univ fun i : Fin 16 => tileOut m d (wOf (Fin.cast nCore_zero c) i)
  go := fun q d c i => match q with
    | 0 => tileIn m d (wOf (Fin.cast nCore_zero c) (Fin.cast nSub_zero i))
  td := fun q d c i => match q with
    | 0 => tileOut m d (wOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => tileIn m d (wOf (Fin.cast nCore_zero c) i)))
  dn q d c := match q with
    | 0 => (inferInstance : BI.Storable (upEmb : UEmb _ 𝕄) (bigSep Finset.univ fun i : Fin 16 => tileOut m d (wOf (Fin.cast nCore_zero c) i)))
  go q d c i := match q with
    | 0 => (inferInstance : BI.Storable (upEmb : UEmb _ 𝕄) (tileIn m d (wOf (Fin.cast nCore_zero c) (Fin.cast nSub_zero i))))
  td q d c i := match q with
    | 0 => (inferInstance : BI.Storable (upEmb : UEmb _ 𝕄) (tileOut m d (wOf (Fin.cast nCore_zero c) (Fin.cast nSub_zero i))))

/-- What the proof asks of the launch memory: every word of the list names a row of the table that is not its last. -/
def PreOK : Prop := ∀ (d : Dev nD) (j : S8192.Idx), (m (iLoc d) j).toNat ≤ 8191

end Cert.Proof.KI

end
-- ==== Proof.KI.Geom.lean ====
/-
  One tile's view of the arrays. The tile at grid coordinates `L = (c, i)` addresses entries
  [512 i + 256 c, 512 i + 256 c + 256) of the list and the same rows of the result: exactly part `2 i + c` of the 32
  the launch deals, so what it is handed is what its copies name. Also: which of the tile's own cells and buffers the
  kernel uses (three transfer cells, two scratch buffers).
-/
import proofs.«202643_g15668040696352_cont_week2b_341_8_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The part the tile at `L` works on. -/
abbrev wL (L : grid0.Coords) : Fin 32 := wOf (cL L) (jL L)

abbrev irowK (L : grid0.Coords) : Rect S8192 := Rect.unit (s := S8192) (k0_off1 L) S256.size (k0_off1_inb L)
abbrev orowK (L : grid0.Coords) : Rect S1x8192x128 := Rect.unit (s := S1x8192x128) (k0_off2 L) S1x256x128.size (k0_off2_inb L)
/-- The tile's entries of the list, its rows of the result (the unit axis dropped), and all of the table, as it addresses them. -/
abbrev iRowK (L : grid0.Coords) : Memref sig .scVector .hbm S256 .i32 := (iV).slice (irowK L) (fun _ => rfl)
abbrev oRowK (L : grid0.Coords) : Memref sig .scVector .hbm S256x128 .f32 := ((oV).slice (orowK L) (fun _ => rfl)).squeeze S256x128 squeezes_S1x256x128_S256x128
abbrev xAllK : Memref sig .scVector .hbm S8193x128 .f32 := (xV).slice (Rect.unit (s := S8193x128) ![0, 0] S8193x128.size inb_S8193x128_S8193x128_0_0) (fun _ => rfl)

theorem irowK_eq : irowK L = irow (wL L) := by
  unfold irowK irow Rect.part Rect.block
  congr 1 <;> funext a
  · rw [k0_off1_eq]
    match a with
    | 0 => simp [Shape.partIx, Shape.partSize, wOf]; omega
  · match a with
    | 0 => simp [Shape.partSize]

theorem orowK_eq : orowK L = orow (wL L) := by
  unfold orowK orow Rect.part Rect.block
  congr 1 <;> funext a
  · rw [k0_off2_eq]
    match a with
    | 0 => simp [Shape.partIx, Shape.partSize]
    | 1 => simp [Shape.partIx, Shape.partSize, wOf]; omega
    | 2 => simp [Shape.partIx, Shape.partSize]
  · match a with
    | 0 => simp [Shape.partSize]
    | 1 => simp [Shape.partSize]
    | 2 => simp [Shape.partSize]

theorem set_iRowK : (iRowK L).view.set = iRowSet (wL L) := by
  show ((iV).view.slice (irowK L)).set = ((iV).view.slice (irow (wL L))).set
  rw [irowK_eq]

theorem set_oRowK : (oRowK L).view.set = oRowSet (wL L) := by
  show (((oV).view.slice (orowK L)).reshape S256x128 squeezes_S1x256x128_S256x128.numel_eq).set = ((oV).view.slice (orow (wL L))).set
  rw [View.set_reshape]
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three transfer cells: the gather's, the list fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Cert.Proof.KI

end
-- ==== Proof.KI.Value.lean ====
/-
  What one tile leaves in its rows of the result. The tile at `L = (c, i)` starts at entry `off = 512 i + 256 c`.
  Its list fetch lands entries `off + k` (k < 256) of the list; the gather puts, at row `k` and column `q` of the row
  scratch, the table at (the row entry `off + k` names, `q`); the write-out puts row `k`, column `q` of the row
  scratch at `(0, off + k, q)` of the result. So on the tile's rows the result is the looked-up rows.
-/
import proofs.«202643_g15668040696352_cont_week2b_341_8_alg».proof.Proof.KI.Geom
import Idealize.ShloMosaic.Lib.ValueIdx
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (m : (ℓ : Loc nD τ sig) → Buf (Elt F) ℓ)
variable (d : Dev nD) (L : grid0.Coords)

/-- The tile's first entry of the list, and first row of the result. -/
def off (L : grid0.Coords) : Nat := 512 * (L 1).val + 256 * (L 0).val

theorem off_le (L : grid0.Coords) : off L + 256 ≤ 8192 := by
  have h0 : (L 0).val < 2 := (L 0).isLt
  have h1 : (L 1).val < 16 := (L 1).isLt
  unfold off; omega

/-- Entry `k` of the tile's window of the list is entry `off + k` of the list. -/
theorem iRowK_emb (k : Fin 256) :
    (iRowK L).view.emb (ix1 k) = ix1 (⟨off L + k.val, by have := off_le L; omega⟩ : Fin 8192) := by
  funext a; apply Fin.ext
  match a with
  | ⟨0, _⟩ =>
    show (k0_off1 L) 0 + 1 * k.val = off L + k.val
    rw [k0_off1_eq]
    show 512 * (L 1).val + 256 * (L 0).val + 1 * k.val = off L + k.val
    unfold off; omega

/-- Row `p`, column `q` of the tile's window of the result is `(0, off + p, q)` of the result. -/
theorem oRowK_emb (p : Fin 256) (q : Fin 128) :
    (oRowK L).view.emb (ix2 p q) = ix3 (⟨0, Nat.one_pos⟩ : Fin 1) (⟨off L + p.val, by have := off_le L; omega⟩ : Fin 8192) q := by
  show (orowK L).emb (Shape.reshapeEquiv squeezes_S1x256x128_S256x128.numel_eq (ix2 p q)) = _
  rw [reshapeEquiv_ix2_1ab]
  funext a; apply Fin.ext
  match a with
  | ⟨0, _⟩ =>
    show (k0_off2 L) 0 + 1 * 0 = 0
    rw [k0_off2_eq]; rfl
  | ⟨1, _⟩ =>
    show (k0_off2 L) 1 + 1 * p.val = off L + p.val
    rw [k0_off2_eq]
    show 512 * (L 1).val + 256 * (L 0).val + 1 * p.val = off L + p.val
    unfold off; omega
  | ⟨2, _⟩ =>
    show (k0_off2 L) 2 + 1 * q.val = q.val
    rw [k0_off2_eq]
    show 0 + 1 * q.val = q.val
    omega

/-- The table is addressed whole: an index of the tile's window of it is the table's own. -/
theorem xAllK_emb (z : S8193x128.Idx) : (xAllK).view.emb z = z := by
  funext a; apply Fin.ext
  match a with
  | ⟨0, _⟩ => show 0 + 1 * (z 0).val = (z 0).val; omega
  | ⟨1, _⟩ => show 0 + 1 * (z 1).val = (z 1).val; omega

/-- Position `k` of the 256-entry list scratch in row-major order is its entry `k`. -/
theorem list_entry {o : Nat} (h : S256.numel = o) (k : Fin o) :
    S256.rowMajor.symm (k.cast h.symm) = ix1 (⟨k.val, by have := k.isLt; have e : S256.numel = 256 := rfl; omega⟩ : Fin 256) := by
  rw [Equiv.symm_apply_eq]; apply Fin.ext; rw [Shape.rowMajor_val_one]; rfl

/-- What the list scratch holds once the fetch has landed: the tile's 256 entries of the list it was fetched from. -/
theorem fetched_apply (fi : Buf (Elt F) (iLoc d)) (fs : Buf (Elt F) ((V d (cV L) (jV L)).loc cc0_scratch0)) (x : S256.Idx) :
    (sV).view.read (Elt F) (View.write (Elt F) (sV).view fs ((iRowK L).view.read (Elt F) fi) Finset.univ) x = fi ((iRowK L).view.emb x) := by
  rw [View.write_whole_univ]
  exact (View.read_apply _ _).trans (cast_eq _ _)

/-- Each of them names a row of the table (the precondition bounds every entry of the list by 8191; the table has 8193 rows). -/
theorem fetched_lt (hpre : PreOK m) (fs : Buf (Elt F) ((V d (cV L) (jV L)).loc cc0_scratch0)) (x : S256.Idx) :
    ((sV).view.read (Elt F) (View.write (Elt F) (sV).view fs ((iRowK L).view.read (Elt F) (m (iLoc d))) Finset.univ) x).toNat
      < S8193x128.size gathers_S8193x128_S256x128.axis := by
  rw [fetched_apply]
  have := hpre d ((iRowK L).view.emb x)
  show _ < 8193
  omega

/-- The row of the table the gather reads for row `p` of the row scratch: the one entry `off + p` of the list names. -/
theorem named_row (hpre : PreOK m) (fs : Buf (Elt F) ((V d (cV L) (jV L)).loc cc0_scratch0))
    (hn : S256.numel = S256x128.size gathers_S8193x128_S256x128.axis')
    (hin : ∀ x, ((sV).view.read (Elt F) (View.write (Elt F) (sV).view fs ((iRowK L).view.read (Elt F) (m (iLoc d))) Finset.univ) x).toNat
      < S8193x128.size gathers_S8193x128_S256x128.axis) (p : Fin (S256x128.size gathers_S8193x128_S256x128.axis')) :
    (SparseCore.rows ((sV).view.read (Elt F) (View.write (Elt F) (sV).view fs ((iRowK L).view.read (Elt F) (m (iLoc d))) Finset.univ)) hn hin p).val
      = (Cert.Spec.rowOfWord (m (iLoc d) (ix1 (⟨off L + p.val, by have := off_le L; have : p.val < 256 := p.isLt; omega⟩ : Fin 8192)))).val := by
  have hp : p.val < 256 := p.isLt
  show ((sV).view.read (Elt F) (View.write (Elt F) (sV).view fs ((iRowK L).view.read (Elt F) (m (iLoc d))) Finset.univ)
      (S256.rowMajor.symm (p.cast hn.symm))).toNat = _
  rw [list_entry hn p, fetched_apply, iRowK_emb L ⟨p.val, hp⟩, Cert.Spec.rowOfWord_val_of_le]
  have := hpre d (ix1 (⟨off L + p.val, by have := off_le L; omega⟩ : Fin 8192))
  omega

/-- After the write-out, the tile's rows of the result hold the looked-up rows. -/
theorem out_rows_eq (hpre : PreOK m) (fs : Buf (Elt F) ((V d (cV L) (jV L)).loc cc0_scratch0))
    (fr : Buf (Elt F) ((V d (cV L) (jV L)).loc cc0_scratch1)) (fo : Buf (Elt F) (oLoc d))
    (hn : S256.numel = S256x128.size gathers_S8193x128_S256x128.axis')
    (hin : ∀ x, ((sV).view.read (Elt F) (View.write (Elt F) (sV).view fs ((iRowK L).view.read (Elt F) (m (iLoc d))) Finset.univ) x).toNat
      < S8193x128.size gathers_S8193x128_S256x128.axis)
    (pay : S256x128.Idx → Elt F .f32)
    (hpay : pay = (rV).view.read (Elt F) (View.write (Elt F) (rV).view fr
        (SparseCore.gatherPayload gathers_S8193x128_S256x128 ((xAllK).view.read (Elt F) (m (xLoc d)))
          (SparseCore.rows ((sV).view.read (Elt F) (View.write (Elt F) (sV).view fs ((iRowK L).view.read (Elt F) (m (iLoc d))) Finset.univ)) hn hin))
        Finset.univ)) :
    ∀ i ∈ (oRowK L).view.set, (oRowK L).view.writes (Elt F) fo [⟨Rect.whole S256x128, pay⟩] i = G m d i := by
  subst hpay
  intro i hi
  obtain ⟨y, -, rfl⟩ := Finset.mem_map.mp hi
  obtain ⟨p, q, rfl⟩ : ∃ (p : Fin 256) (q : Fin 128), y = ix2 p q := ⟨y 0, y 1, eq_ix2 y⟩
  rw [View.writes_singleton, View.write_whole_univ]
  have e1 : ((oRowK L).view.slice (Rect.whole S256x128)).emb (ix2 p q) = (oRowK L).view.emb (ix2 p q) := by
    show (oRowK L).view.emb ((Rect.whole S256x128).emb (ix2 p q)) = _
    rw [Rect.emb_whole_apply]
  rw [← e1, View.write_emb_of_mem _ _ (Finset.mem_univ _), e1, oRowK_emb]
  refine (cast_eq _ _).trans ?_
  show (xAllK).view.read (Elt F) (m (xLoc d)) (gathers_S8193x128_S256x128.idx _ (ix2 p q)) = Cert.Spec.gathered (m (iLoc d)) (m (xLoc d)) (ix3 _ _ q)
  rw [Cert.Spec.gathered_apply]
  refine ((View.read_apply _ _).trans (cast_eq _ _)).trans ?_
  rw [xAllK_emb]
  refine congrArg (m (xLoc d)) ?_
  funext a; apply Fin.ext
  match a with
  | ⟨0, _⟩ =>
    have h0 := Shape.Gathers.idx_axis gathers_S8193x128_S256x128
      (SparseCore.rows ((sV).view.read (Elt F) (View.write (Elt F) (sV).view fs ((iRowK L).view.read (Elt F) (m (iLoc d))) Finset.univ)) hn hin) (ix2 p q)
    refine (congrArg Fin.val h0).trans ?_
    exact named_row m d L hpre fs hn hin p
  | ⟨1, _⟩ =>
    exact Shape.Gathers.idx_of_ne gathers_S8193x128_S256x128 _ (ix2 p q) ⟨1, by decide⟩ (by decide)

end Cert.Proof.KI

end
-- ==== Proof.KI.Tile.lean ====
/-
  One tile's task: fetch its 256 entries of the list into its list scratch, gather the table's rows those entries
  name into its row scratch, write the row scratch out to its rows of the result; each copy is awaited before the next
  begins, so nothing is read or written while in flight.
-/
import proofs.«202643_g15668040696352_cont_week2b_341_8_alg».proof.Proof.KI.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)
variable [FloatOps F]

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileIn m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_rows L xV (Memref.isWhole_whole _) iV (Memref.isWhole_whole _) oV (Memref.isWhole_whole _)
            sV (Memref.isWhole_whole _) rV (Memref.isWhole_whole _) cc0_scratch2 cc0_scoped0 cc0_scoped1)
          fun _ => iprop(tileOut m d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_rows_eq_skeleton]; unfold cc0__gather_rows_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the gather of the named rows: the tile lends its share of the table, the row scratch, the list scratch and the
  -- gather's cell at zero; every entry of the list names a row (`fetched_lt`)
  ihave Hxs := (pointsTo_split_subset (q := xq (wL L)) (f := m (xLoc d)) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  iapply (SparseCore.wp_indirectGatherLocal countersEmb 𝒱₀ (V d (cV L) (jV L)) none (hg := gathers_S8193x128_S256x128) (default : HIx 1)
      (rV).view.dmaCredit (SparseCore.sum_rowCredit_eq_dmaCredit (rV) gathers_S8193x128_S256x128.axis' (fun _ => rfl)) (by decide)
      (fetched_lt m d L hpre fs)) $$ [Hxs Hr'' Hs'' HsemG]
  · isplitl [Hxs]; · iexact Hxs
    isplitl [Hr'']; · iexact Hr''
    isplitl [Hs'']; · iexact Hs''
    iexact HsemG
  iintro Hfl
  sl_exec
  -- its wait: the row scratch comes back written with the gathered rows, the share of the table and the list scratch with it
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemG, HO⟩
  ihave Hx' := (pointsTo_split_subset (q := xq (wL L)) (f := m (xLoc d)) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the tile's rows of the result now hold the looked-up rows (`out_rows_eq`)
  ihave Ho'' := (Entails.of_eq (pointsTo_congr (q := fullShare) (out_rows_eq m d L hpre fs fr (m (oLoc d)) _ (fetched_lt m d L hpre fs) _ rfl))) $$ Ho'
  isplitl [Hi' Hx' Ho'']
  · isplitl [Hi']; · iapply (Entails.of_eq (pts_iRowK (F := F) d L _)); iexact Hi'
    isplitl [Hx']; · iexact Hx'
    iapply (Entails.of_eq (pts_oRowK (F := F) d L _)); iexact Ho''
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.KI

end
-- ==== Proof.KI.Launch.lean ====
/-
  The launch of the lookup kernel: each tile's task meets the launch theorem's obligation; a SparseCore's operands
  are its sixteen tiles' parts, dealt and collected as they stand; the TensorCore's whole arrays are the 32 parts
  (the list's and the result's cut along the long axis, the table's full share cut into 32 pieces), and after the
  call the 32 parts of the result, each holding its looked-up rows, are the whole result at that function. The run
  therefore ends with the list and the table as launched and the result the looked-up rows.
-/
import proofs.«202643_g15668040696352_cont_week2b_341_8_alg».proof.Proof.KI.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_rows (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A SparseCore's operands are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => tileIn m d (wOf (Fin.cast nCore_zero c) i)) ⊢ |={Set.univ}=> iprop(
      (bigSep Finset.univ fun i : Fin ((K (F := F)).nSub 0) => tileIn m d (wOf (Fin.cast nCore_zero c) (Fin.cast nSub_zero i)))
      ∗ ((bigSep Finset.univ fun i : Fin ((K (F := F)).nSub 0) => tileOut m d (wOf (Fin.cast nCore_zero c) (Fin.cast nSub_zero i)))
          -∗ (bigSep Finset.univ fun i : Fin 16 => tileOut m d (wOf (Fin.cast nCore_zero c) i))))
  rw [bigSep_tasks (F := F) (fun i => tileIn m d (wOf (Fin.cast nCore_zero c) i)),
    bigSep_tasks (F := F) (fun i => tileOut m d (wOf (Fin.cast nCore_zero c) i))]
  iintro H; imodintro
  isplitl [H]; · iexact H
  iintro H; iexact H

/-! ## The whole arrays are the 32 parts -/

omit [FloatOps F] in
theorem iRowSet_eq (w : Fin 32) : iRowSet w = (irow w).set := by
  show ((View.whole (main_arg0_scv : Ref sig .scVector)).slice (irow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit [FloatOps F] in
theorem xPts_shares (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

omit [FloatOps F] in
/-- Dealing by SparseCore and then by tile reaches every part once. -/
theorem deal (Φ : Fin 32 → sProp 𝕄) :
    (bigSep Finset.univ fun c : Fin ((K (F := F)).nCore 0) => bigSep Finset.univ fun i : Fin 16 => Φ (wOf (Fin.cast nCore_zero c) i))
      = bigSep Finset.univ Φ := by
  rw [bigSep_univ_equiv wEquiv Φ, bigSep_univ_prod]
  exact bigSep_congr fun c _ => bigSep_congr fun i _ => rfl

theorem st0_eq (d : Dev nD) :
    (bigSep Finset.univ fun c : Fin ((K (F := F)).nCore 0) => (P m).st 0 d c) = iprop(iPts m d ∗ xPts m d ∗ oPts d (m (oLoc d))) := by
  show (bigSep Finset.univ fun c : Fin ((K (F := F)).nCore 0) => bigSep Finset.univ fun i : Fin 16 => tileIn m d (wOf (Fin.cast nCore_zero c) i)) = _
  rw [deal (F := F) (fun w => tileIn m d w), bigSep_sep', bigSep_sep']
  unfold iPts xPts oPts
  rw [iPts_rows, xPts_shares, oPts_rows]

theorem dn0_eq (d : Dev nD) :
    (bigSep Finset.univ fun c : Fin ((K (F := F)).nCore 0) => (P m).dn 0 d c) = iprop(iPts m d ∗ xPts m d ∗ oPts d (G m d)) := by
  show (bigSep Finset.univ fun c : Fin ((K (F := F)).nCore 0) => bigSep Finset.univ fun i : Fin 16 => tileOut m d (wOf (Fin.cast nCore_zero c) i)) = _
  rw [deal (F := F) (fun w => tileOut m d w), bigSep_sep', bigSep_sep']
  unfold iPts xPts oPts
  rw [iPts_rows, xPts_shares, oPts_rows]

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the TensorCore holds at the end: the list and the table as launched, the result the looked-up rows. -/
abbrev FIN (d : Dev nD) : sProp 𝕄 := iprop(iPts m d ∗ xPts m d ∗ oPts d (G m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (oLoc d) = G m d ∧ s'.mem.mem (iLoc d) = m (iLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run's end: on every device the result holds the looked-up rows, the list and the table are as launched. -/
def QC : PUnit × MemSt nD τ sig (Elt F) → Prop := fun r => ∀ c : Dev nD,
  r.2.mem (oLoc c) = G m c ∧ r.2.mem (iLoc c) = m (iLoc c) ∧ r.2.mem (xLoc c) = m (xLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KB.Setup.lean ====
/-
  The lookup kernel as the SparseCore launch theorem sees it, and how its three arrays are dealt to the 32 tiles.
  Tile `i` of SparseCore `c` works on part `2 i + c` of 32: entries [256 (2 i + c), 256 (2 i + c + 1)) of the list
  of row numbers and the same rows of the result. The list and the result are cut into those 32 parts along their
  long axis; the table, which every tile reads whole, is dealt as 32 pieces of its full share. Each tile returns
  its part of the result holding the looked-up rows, so the parts join to the whole result at that function.
-/
import proofs.«202643_g15668040696352_cont_week2b_341_8_alg».proof.Proof.Gen.Kernel
import proofs.«202643_g15668040696352_cont_week2b_341_8_alg».proof.Proof.Gen.Kernel.Skeleton
import proofs.«202643_g15668040696352_cont_week2b_341_8_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev iV : Memref sig .scVector .hbm S8192 .i32 := Memref.whole main_arg0_scv
abbrev xV : Memref sig .scVector .hbm S8193x128 .f32 := Memref.whole main_arg1_scv
abbrev oV : Memref sig .scVector .hbm S1x8192x128 .f32 := Memref.whole main_v0_scv
abbrev sV : Memref sig .scVector .vmem S256 .i32 := Memref.whole cc0_scratch0
abbrev rV : Memref sig .scVector .vmem S256x128 .f32 := Memref.whole cc0_scratch1

/-- What the result holds at the end: the looked-up rows of the launch memory's table at the launch memory's list. -/
def G (d : Dev nD) : Buf (Elt F) (oLoc d) := Cert.Spec.gathered (m (iLoc d)) (m (xLoc d))

/-! ## The 32 parts -/

theorem idiv : 32 ∣ S8192.size 0 := ⟨256, rfl⟩
theorem odiv : 32 ∣ S1x8192x128.size 1 := ⟨256, rfl⟩
abbrev irow (w : Fin 32) : Rect S8192 := Rect.part (s := S8192) (a₀ := 0) idiv w
abbrev orow (w : Fin 32) : Rect S1x8192x128 := Rect.part (s := S1x8192x128) (a₀ := 1) odiv w
abbrev iRowSet (w : Fin 32) : Finset S8192.Idx := ((iV).view.slice (irow w)).set
abbrev oRowSet (w : Fin 32) : Finset S1x8192x128.Idx := ((oV).view.slice (orow w)).set

/-- The part tile `i` of SparseCore `c` works on. -/
def wOf (c : Fin 2) (i : Fin 16) : Fin 32 := ⟨2 * i.val + c.val, by omega⟩

/-- Every part is some tile's, exactly one. -/
def wEquiv : Fin 2 × Fin 16 ≃ Fin 32 where
  toFun p := wOf p.1 p.2
  invFun w := (⟨w.val % 2, Nat.mod_lt _ (by decide)⟩, ⟨w.val / 2, by omega⟩)
  left_inv p := by
    rcases p with ⟨c, i⟩
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

/-- Tile `w`'s share of the table: one of 32 pieces of the full share. -/
abbrev xq (w : Fin 32) : PosShare TreeShare := pieceOf fullShare 32 (by decide) w

variable [FloatOps F]

/-! ## What the handshakes carry -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (w : Fin 32) : sProp 𝕄 := iLoc d ↦[iRowSet w]{fullShare} m (iLoc d)
abbrev xShPts (d : Dev nD) (w : Fin 32) : sProp 𝕄 := xLoc d ↦{xq w} m (xLoc d)
abbrev oRowPts (d : Dev nD) (w : Fin 32) (f : Buf (Elt F) (oLoc d)) : sProp 𝕄 := oLoc d ↦[oRowSet w]{fullShare} f

/-- What a tile is handed for part `w`: its entries of the list, its share of the table, its rows of the result as launched. -/
abbrev tileIn (d : Dev nD) (w : Fin 32) : sProp 𝕄 := iprop(iRowPts m d w ∗ xShPts m d w ∗ oRowPts d w (m (oLoc d)))
/-- What it hands back: the same, its rows of the result now the looked-up rows. -/
abbrev tileOut (d : Dev nD) (w : Fin 32) : sProp 𝕄 := iprop(iRowPts m d w ∗ xShPts m d w ∗ oRowPts d w (G m d))

/-- The one call: a SparseCore takes its sixteen tiles' parts and brings them back. -/
def P : (K (F := F)).Pay (nD := nD) (Val := Elt F) (Name := ℕ) (U := UU) where
  st := fun q d c => match q with
    | 0 => bigSep Finset.univ fun i : Fin 16 => tileIn m d (wOf (Fin.cast nCore_zero c) i)
  dn := fun q d c => match q with
    | 0 => bigSep Finset.univ fun i : Fin 16 => tileOut m d (wOf (Fin.cast nCore_zero c) i)
  go := fun q d c i => match q with
    | 0 => tileIn m d (wOf (Fin.cast nCore_zero c) (Fin.cast nSub_zero i))
  td := fun q d c i => match q with
    | 0 => tileOut m d (wOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => tileIn m d (wOf (Fin.cast nCore_zero c) i)))
  dn q d c := match q with
    | 0 => (inferInstance : BI.Storable (upEmb : UEmb _ 𝕄) (bigSep Finset.univ fun i : Fin 16 => tileOut m d (wOf (Fin.cast nCore_zero c) i)))
  go q d c i := match q with
    | 0 => (inferInstance : BI.Storable (upEmb : UEmb _ 𝕄) (tileIn m d (wOf (Fin.cast nCore_zero c) (Fin.cast nSub_zero i))))
  td q d c i := match q with
    | 0 => (inferInstance : BI.Storable (upEmb : UEmb _ 𝕄) (tileOut m d (wOf (Fin.cast nCore_zero c) (Fin.cast nSub_zero i))))

/-- What the proof asks of the launch memory: every word of the list names a row of the table that is not its last. -/
def PreOK : Prop := ∀ (d : Dev nD) (j : S8192.Idx), (m (iLoc d) j).toNat ≤ 8191

end Cert.Proof.KB

end
-- ==== Proof.KB.Geom.lean ====
/-
  One tile's view of the arrays. The tile at grid coordinates `L = (c, i)` addresses entries
  [512 i + 256 c, 512 i + 256 c + 256) of the list and the same rows of the result: exactly part `2 i + c` of the 32
  the launch deals, so what it is handed is what its copies name. Also: which of the tile's own cells and buffers the
  kernel uses (three transfer cells, two scratch buffers).
-/
import proofs.«202643_g15668040696352_cont_week2b_341_8_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The part the tile at `L` works on. -/
abbrev wL (L : grid0.Coords) : Fin 32 := wOf (cL L) (jL L)

abbrev irowK (L : grid0.Coords) : Rect S8192 := Rect.unit (s := S8192) (k0_off1 L) S256.size (k0_off1_inb L)
abbrev orowK (L : grid0.Coords) : Rect S1x8192x128 := Rect.unit (s := S1x8192x128) (k0_off2 L) S1x256x128.size (k0_off2_inb L)
/-- The tile's entries of the list, its rows of the result (the unit axis dropped), and all of the table, as it addresses them. -/
abbrev iRowK (L : grid0.Coords) : Memref sig .scVector .hbm S256 .i32 := (iV).slice (irowK L) (fun _ => rfl)
abbrev oRowK (L : grid0.Coords) : Memref sig .scVector .hbm S256x128 .f32 := ((oV).slice (orowK L) (fun _ => rfl)).squeeze S256x128 squeezes_S1x256x128_S256x128
abbrev xAllK : Memref sig .scVector .hbm S8193x128 .f32 := (xV).slice (Rect.unit (s := S8193x128) ![0, 0] S8193x128.size inb_S8193x128_S8193x128_0_0) (fun _ => rfl)

theorem irowK_eq : irowK L = irow (wL L) := by
  unfold irowK irow Rect.part Rect.block
  congr 1 <;> funext a
  · rw [k0_off1_eq]
    match a with
    | 0 => simp [Shape.partIx, Shape.partSize, wOf]; omega
  · match a with
    | 0 => simp [Shape.partSize]

theorem orowK_eq : orowK L = orow (wL L) := by
  unfold orowK orow Rect.part Rect.block
  congr 1 <;> funext a
  · rw [k0_off2_eq]
    match a with
    | 0 => simp [Shape.partIx, Shape.partSize]
    | 1 => simp [Shape.partIx, Shape.partSize, wOf]; omega
    | 2 => simp [Shape.partIx, Shape.partSize]
  · match a with
    | 0 => simp [Shape.partSize]
    | 1 => simp [Shape.partSize]
    | 2 => simp [Shape.partSize]

theorem set_iRowK : (iRowK L).view.set = iRowSet (wL L) := by
  show ((iV).view.slice (irowK L)).set = ((iV).view.slice (irow (wL L))).set
  rw [irowK_eq]

theorem set_oRowK : (oRowK L).view.set = oRowSet (wL L) := by
  show (((oV).view.slice (orowK L)).reshape S256x128 squeezes_S1x256x128_S256x128.numel_eq).set = ((oV).view.slice (orow (wL L))).set
  rw [View.set_reshape]
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three transfer cells: the gather's, the list fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Cert.Proof.KB

end
-- ==== Proof.KB.Value.lean ====
/-
  What one tile leaves in its rows of the result. The tile at `L = (c, i)` starts at entry `off = 512 i + 256 c`.
  Its list fetch lands entries `off + k` (k < 256) of the list; the gather puts, at row `k` and column `q` of the row
  scratch, the table at (the row entry `off + k` names, `q`); the write-out puts row `k`, column `q` of the row
  scratch at `(0, off + k, q)` of the result. So on the tile's rows the result is the looked-up rows.
-/
import proofs.«202643_g15668040696352_cont_week2b_341_8_alg».proof.Proof.KB.Geom
import Idealize.ShloMosaic.Lib.ValueIdx
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (m : (ℓ : Loc nD τ sig) → Buf (Elt F) ℓ)
variable (d : Dev nD) (L : grid0.Coords)

/-- The tile's first entry of the list, and first row of the result. -/
def off (L : grid0.Coords) : Nat := 512 * (L 1).val + 256 * (L 0).val

theorem off_le (L : grid0.Coords) : off L + 256 ≤ 8192 := by
  have h0 : (L 0).val < 2 := (L 0).isLt
  have h1 : (L 1).val < 16 := (L 1).isLt
  unfold off; omega

/-- Entry `k` of the tile's window of the list is entry `off + k` of the list. -/
theorem iRowK_emb (k : Fin 256) :
    (iRowK L).view.emb (ix1 k) = ix1 (⟨off L + k.val, by have := off_le L; omega⟩ : Fin 8192) := by
  funext a; apply Fin.ext
  match a with
  | ⟨0, _⟩ =>
    show (k0_off1 L) 0 + 1 * k.val = off L + k.val
    rw [k0_off1_eq]
    show 512 * (L 1).val + 256 * (L 0).val + 1 * k.val = off L + k.val
    unfold off; omega

/-- Row `p`, column `q` of the tile's window of the result is `(0, off + p, q)` of the result. -/
theorem oRowK_emb (p : Fin 256) (q : Fin 128) :
    (oRowK L).view.emb (ix2 p q) = ix3 (⟨0, Nat.one_pos⟩ : Fin 1) (⟨off L + p.val, by have := off_le L; omega⟩ : Fin 8192) q := by
  show (orowK L).emb (Shape.reshapeEquiv squeezes_S1x256x128_S256x128.numel_eq (ix2 p q)) = _
  rw [reshapeEquiv_ix2_1ab]
  funext a; apply Fin.ext
  match a with
  | ⟨0, _⟩ =>
    show (k0_off2 L) 0 + 1 * 0 = 0
    rw [k0_off2_eq]; rfl
  | ⟨1, _⟩ =>
    show (k0_off2 L) 1 + 1 * p.val = off L + p.val
    rw [k0_off2_eq]
    show 512 * (L 1).val + 256 * (L 0).val + 1 * p.val = off L + p.val
    unfold off; omega
  | ⟨2, _⟩ =>
    show (k0_off2 L) 2 + 1 * q.val = q.val
    rw [k0_off2_eq]
    show 0 + 1 * q.val = q.val
    omega

/-- The table is addressed whole: an index of the tile's window of it is the table's own. -/
theorem xAllK_emb (z : S8193x128.Idx) : (xAllK).view.emb z = z := by
  funext a; apply Fin.ext
  match a with
  | ⟨0, _⟩ => show 0 + 1 * (z 0).val = (z 0).val; omega
  | ⟨1, _⟩ => show 0 + 1 * (z 1).val = (z 1).val; omega

/-- Position `k` of the 256-entry list scratch in row-major order is its entry `k`. -/
theorem list_entry {o : Nat} (h : S256.numel = o) (k : Fin o) :
    S256.rowMajor.symm (k.cast h.symm) = ix1 (⟨k.val, by have := k.isLt; have e : S256.numel = 256 := rfl; omega⟩ : Fin 256) := by
  rw [Equiv.symm_apply_eq]; apply Fin.ext; rw [Shape.rowMajor_val_one]; rfl

/-- What the list scratch holds once the fetch has landed: the tile's 256 entries of the list it was fetched from. -/
theorem fetched_apply (fi : Buf (Elt F) (iLoc d)) (fs : Buf (Elt F) ((V d (cV L) (jV L)).loc cc0_scratch0)) (x : S256.Idx) :
    (sV).view.read (Elt F) (View.write (Elt F) (sV).view fs ((iRowK L).view.read (Elt F) fi) Finset.univ) x = fi ((iRowK L).view.emb x) := by
  rw [View.write_whole_univ]
  exact (View.read_apply _ _).trans (cast_eq _ _)

/-- Each of them names a row of the table (the precondition bounds every entry of the list by 8191; the table has 8193 rows). -/
theorem fetched_lt (hpre : PreOK m) (fs : Buf (Elt F) ((V d (cV L) (jV L)).loc cc0_scratch0)) (x : S256.Idx) :
    ((sV).view.read (Elt F) (View.write (Elt F) (sV).view fs ((iRowK L).view.read (Elt F) (m (iLoc d))) Finset.univ) x).toNat
      < S8193x128.size gathers_S8193x128_S256x128.axis := by
  rw [fetched_apply]
  have := hpre d ((iRowK L).view.emb x)
  show _ < 8193
  omega

/-- The row of the table the gather reads for row `p` of the row scratch: the one entry `off + p` of the list names. -/
theorem named_row (hpre : PreOK m) (fs : Buf (Elt F) ((V d (cV L) (jV L)).loc cc0_scratch0))
    (hn : S256.numel = S256x128.size gathers_S8193x128_S256x128.axis')
    (hin : ∀ x, ((sV).view.read (Elt F) (View.write (Elt F) (sV).view fs ((iRowK L).view.read (Elt F) (m (iLoc d))) Finset.univ) x).toNat
      < S8193x128.size gathers_S8193x128_S256x128.axis) (p : Fin (S256x128.size gathers_S8193x128_S256x128.axis')) :
    (SparseCore.rows ((sV).view.read (Elt F) (View.write (Elt F) (sV).view fs ((iRowK L).view.read (Elt F) (m (iLoc d))) Finset.univ)) hn hin p).val
      = (Cert.Spec.rowOfWord (m (iLoc d) (ix1 (⟨off L + p.val, by have := off_le L; have : p.val < 256 := p.isLt; omega⟩ : Fin 8192)))).val := by
  have hp : p.val < 256 := p.isLt
  show ((sV).view.read (Elt F) (View.write (Elt F) (sV).view fs ((iRowK L).view.read (Elt F) (m (iLoc d))) Finset.univ)
      (S256.rowMajor.symm (p.cast hn.symm))).toNat = _
  rw [list_entry hn p, fetched_apply, iRowK_emb L ⟨p.val, hp⟩, Cert.Spec.rowOfWord_val_of_le]
  have := hpre d (ix1 (⟨off L + p.val, by have := off_le L; omega⟩ : Fin 8192))
  omega

/-- After the write-out, the tile's rows of the result hold the looked-up rows. -/
theorem out_rows_eq (hpre : PreOK m) (fs : Buf (Elt F) ((V d (cV L) (jV L)).loc cc0_scratch0))
    (fr : Buf (Elt F) ((V d (cV L) (jV L)).loc cc0_scratch1)) (fo : Buf (Elt F) (oLoc d))
    (hn : S256.numel = S256x128.size gathers_S8193x128_S256x128.axis')
    (hin : ∀ x, ((sV).view.read (Elt F) (View.write (Elt F) (sV).view fs ((iRowK L).view.read (Elt F) (m (iLoc d))) Finset.univ) x).toNat
      < S8193x128.size gathers_S8193x128_S256x128.axis)
    (pay : S256x128.Idx → Elt F .f32)
    (hpay : pay = (rV).view.read (Elt F) (View.write (Elt F) (rV).view fr
        (SparseCore.gatherPayload gathers_S8193x128_S256x128 ((xAllK).view.read (Elt F) (m (xLoc d)))
          (SparseCore.rows ((sV).view.read (Elt F) (View.write (Elt F) (sV).view fs ((iRowK L).view.read (Elt F) (m (iLoc d))) Finset.univ)) hn hin))
        Finset.univ)) :
    ∀ i ∈ (oRowK L).view.set, (oRowK L).view.writes (Elt F) fo [⟨Rect.whole S256x128, pay⟩] i = G m d i := by
  subst hpay
  intro i hi
  obtain ⟨y, -, rfl⟩ := Finset.mem_map.mp hi
  obtain ⟨p, q, rfl⟩ : ∃ (p : Fin 256) (q : Fin 128), y = ix2 p q := ⟨y 0, y 1, eq_ix2 y⟩
  rw [View.writes_singleton, View.write_whole_univ]
  have e1 : ((oRowK L).view.slice (Rect.whole S256x128)).emb (ix2 p q) = (oRowK L).view.emb (ix2 p q) := by
    show (oRowK L).view.emb ((Rect.whole S256x128).emb (ix2 p q)) = _
    rw [Rect.emb_whole_apply]
  rw [← e1, View.write_emb_of_mem _ _ (Finset.mem_univ _), e1, oRowK_emb]
  refine (cast_eq _ _).trans ?_
  show (xAllK).view.read (Elt F) (m (xLoc d)) (gathers_S8193x128_S256x128.idx _ (ix2 p q)) = Cert.Spec.gathered (m (iLoc d)) (m (xLoc d)) (ix3 _ _ q)
  rw [Cert.Spec.gathered_apply]
  refine ((View.read_apply _ _).trans (cast_eq _ _)).trans ?_
  rw [xAllK_emb]
  refine congrArg (m (xLoc d)) ?_
  funext a; apply Fin.ext
  match a with
  | ⟨0, _⟩ =>
    have h0 := Shape.Gathers.idx_axis gathers_S8193x128_S256x128
      (SparseCore.rows ((sV).view.read (Elt F) (View.write (Elt F) (sV).view fs ((iRowK L).view.read (Elt F) (m (iLoc d))) Finset.univ)) hn hin) (ix2 p q)
    refine (congrArg Fin.val h0).trans ?_
    exact named_row m d L hpre fs hn hin p
  | ⟨1, _⟩ =>
    exact Shape.Gathers.idx_of_ne gathers_S8193x128_S256x128 _ (ix2 p q) ⟨1, by decide⟩ (by decide)

end Cert.Proof.KB

end
-- ==== Proof.KB.Tile.lean ====
/-
  One tile's task: fetch its 256 entries of the list into its list scratch, gather the table's rows those entries
  name into its row scratch, write the row scratch out to its rows of the result; each copy is awaited before the next
  begins, so nothing is read or written while in flight.
-/
import proofs.«202643_g15668040696352_cont_week2b_341_8_alg».proof.Proof.KB.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)
variable [FloatOps F]

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileIn m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_rows L xV (Memref.isWhole_whole _) iV (Memref.isWhole_whole _) oV (Memref.isWhole_whole _)
            sV (Memref.isWhole_whole _) rV (Memref.isWhole_whole _) cc0_scratch2 cc0_scoped0 cc0_scoped1)
          fun _ => iprop(tileOut m d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_rows_eq_skeleton]; unfold cc0__gather_rows_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the gather of the named rows: the tile lends its share of the table, the row scratch, the list scratch and the
  -- gather's cell at zero; every entry of the list names a row (`fetched_lt`)
  ihave Hxs := (pointsTo_split_subset (q := xq (wL L)) (f := m (xLoc d)) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  iapply (SparseCore.wp_indirectGatherLocal countersEmb 𝒱₀ (V d (cV L) (jV L)) none (hg := gathers_S8193x128_S256x128) (default : HIx 1)
      (rV).view.dmaCredit (SparseCore.sum_rowCredit_eq_dmaCredit (rV) gathers_S8193x128_S256x128.axis' (fun _ => rfl)) (by decide)
      (fetched_lt m d L hpre fs)) $$ [Hxs Hr'' Hs'' HsemG]
  · isplitl [Hxs]; · iexact Hxs
    isplitl [Hr'']; · iexact Hr''
    isplitl [Hs'']; · iexact Hs''
    iexact HsemG
  iintro Hfl
  sl_exec
  -- its wait: the row scratch comes back written with the gathered rows, the share of the table and the list scratch with it
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemG, HO⟩
  ihave Hx' := (pointsTo_split_subset (q := xq (wL L)) (f := m (xLoc d)) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the tile's rows of the result now hold the looked-up rows (`out_rows_eq`)
  ihave Ho'' := (Entails.of_eq (pointsTo_congr (q := fullShare) (out_rows_eq m d L hpre fs fr (m (oLoc d)) _ (fetched_lt m d L hpre fs) _ rfl))) $$ Ho'
  isplitl [Hi' Hx' Ho'']
  · isplitl [Hi']; · iapply (Entails.of_eq (pts_iRowK (F := F) d L _)); iexact Hi'
    isplitl [Hx']; · iexact Hx'
    iapply (Entails.of_eq (pts_oRowK (F := F) d L _)); iexact Ho''
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.KB

end
-- ==== Proof.KB.Launch.lean ====
/-
  The launch of the lookup kernel: each tile's task meets the launch theorem's obligation; a SparseCore's operands
  are its sixteen tiles' parts, dealt and collected as they stand; the TensorCore's whole arrays are the 32 parts
  (the list's and the result's cut along the long axis, the table's full share cut into 32 pieces), and after the
  call the 32 parts of the result, each holding its looked-up rows, are the whole result at that function. The run
  therefore ends with the list and the table as launched and the result the looked-up rows.
-/
import proofs.«202643_g15668040696352_cont_week2b_341_8_alg».proof.Proof.KB.Tile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_rows (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A SparseCore's operands are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => tileIn m d (wOf (Fin.cast nCore_zero c) i)) ⊢ |={Set.univ}=> iprop(
      (bigSep Finset.univ fun i : Fin ((K (F := F)).nSub 0) => tileIn m d (wOf (Fin.cast nCore_zero c) (Fin.cast nSub_zero i)))
      ∗ ((bigSep Finset.univ fun i : Fin ((K (F := F)).nSub 0) => tileOut m d (wOf (Fin.cast nCore_zero c) (Fin.cast nSub_zero i)))
          -∗ (bigSep Finset.univ fun i : Fin 16 => tileOut m d (wOf (Fin.cast nCore_zero c) i))))
  rw [bigSep_tasks (F := F) (fun i => tileIn m d (wOf (Fin.cast nCore_zero c) i)),
    bigSep_tasks (F := F) (fun i => tileOut m d (wOf (Fin.cast nCore_zero c) i))]
  iintro H; imodintro
  isplitl [H]; · iexact H
  iintro H; iexact H

/-! ## The whole arrays are the 32 parts -/

omit [FloatOps F] in
theorem iRowSet_eq (w : Fin 32) : iRowSet w = (irow w).set := by
  show ((View.whole (main_arg0_scv : Ref sig .scVector)).slice (irow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit [FloatOps F] in
theorem xPts_shares (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

omit [FloatOps F] in
/-- Dealing by SparseCore and then by tile reaches every part once. -/
theorem deal (Φ : Fin 32 → sProp 𝕄) :
    (bigSep Finset.univ fun c : Fin ((K (F := F)).nCore 0) => bigSep Finset.univ fun i : Fin 16 => Φ (wOf (Fin.cast nCore_zero c) i))
      = bigSep Finset.univ Φ := by
  rw [bigSep_univ_equiv wEquiv Φ, bigSep_univ_prod]
  exact bigSep_congr fun c _ => bigSep_congr fun i _ => rfl

theorem st0_eq (d : Dev nD) :
    (bigSep Finset.univ fun c : Fin ((K (F := F)).nCore 0) => (P m).st 0 d c) = iprop(iPts m d ∗ xPts m d ∗ oPts d (m (oLoc d))) := by
  show (bigSep Finset.univ fun c : Fin ((K (F := F)).nCore 0) => bigSep Finset.univ fun i : Fin 16 => tileIn m d (wOf (Fin.cast nCore_zero c) i)) = _
  rw [deal (F := F) (fun w => tileIn m d w), bigSep_sep', bigSep_sep']
  unfold iPts xPts oPts
  rw [iPts_rows, xPts_shares, oPts_rows]

theorem dn0_eq (d : Dev nD) :
    (bigSep Finset.univ fun c : Fin ((K (F := F)).nCore 0) => (P m).dn 0 d c) = iprop(iPts m d ∗ xPts m d ∗ oPts d (G m d)) := by
  show (bigSep Finset.univ fun c : Fin ((K (F := F)).nCore 0) => bigSep Finset.univ fun i : Fin 16 => tileOut m d (wOf (Fin.cast nCore_zero c) i)) = _
  rw [deal (F := F) (fun w => tileOut m d w), bigSep_sep', bigSep_sep']
  unfold iPts xPts oPts
  rw [iPts_rows, xPts_shares, oPts_rows]

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the TensorCore holds at the end: the list and the table as launched, the result the looked-up rows. -/
abbrev FIN (d : Dev nD) : sProp 𝕄 := iprop(iPts m d ∗ xPts m d ∗ oPts d (G m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (oLoc d) = G m d ∧ s'.mem.mem (iLoc d) = m (iLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run's end: on every device the result holds the looked-up rows, the list and the table are as launched. -/
def QC : PUnit × MemSt nD τ sig (Elt F) → Prop := fun r => ∀ c : Dev nD,
  r.2.mem (oLoc c) = G m c ∧ r.2.mem (iLoc c) = m (iLoc c) ∧ r.2.mem (xLoc c) = m (xLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefTerm.lean ====
/-
  The reference's program as one pure function of its two arguments: the operations of its lookup helper, in the
  order the program applies them, composed. A negative row number is first moved up by the table's 8193 rows; the
  moved number is then tested to lie in [0, 8192]; the rows are fetched by the host's gather (which clamps a start
  index into the table); where the test fails the row is replaced by the helper's fill constant; a leading unit
  axis is added.
-/
import proofs.«202643_g15668040696352_cont_week2b_341_8_alg».proof.ReferenceIdeal
import proofs.«202643_g15668040696352_cont_week2b_341_8_alg».proof.Proof.Gen.ReferenceIdeal

noncomputable section

namespace Cert.ReferenceIdeal.RefValue

open Idealize.ShloMosaic Cert.ReferenceIdeal Cert.ReferenceIdeal.Facts₀

variable {F : FTy → Type} [FloatOps F]

/-- The row numbers after the helper's wrap of negative ones: `ts + 8193` where `ts < 0`, else `ts`. -/
def wrapped (ts : IVec S8192 32) : IVec S8192 32 :=
  select (cmpi .slt ts (broadcastInDim S8192 ![] bcast_S_S8192 (constantI S_ 32 0#32)))
    (addi ts (broadcastInDim S8192 ![] bcast_S_S8192 (constantI S_ 32 8193#32))) ts

/-- The same as a column, the form the gather takes its start indices in. -/
def startCol (ts : IVec S8192 32) : IVec S8192x1 32 :=
  broadcastInDim S8192x1 ![0] bcast_S8192_S8192x1_0 (wrapped ts)

/-- Per row, whether its start index lies in [0, 8192]. -/
def inRange (ts : IVec S8192 32) : IVec S8192 1 :=
  Host.reduce IntOp.andi
    (andi (cmpi .sge (startCol ts) (broadcastInDim S8192x1 ![] bcast_S_S8192x1 (constantI S_ 32 0#32)))
      (cmpi .sle (startCol ts)
        (broadcastInDim S8192x1 ![0, 1] bcast_S1x1_S8192x1_0_1 (broadcastInDim S1x1 ![1] bcast_S1_S1x1_1 (constantI S1 32 8192#32)))))
    (constantI S_ 1 1#1) reducesTo_S8192x1_S8192_d1 h_S_

/-- The helper's result: the fetched rows where the start index is in range, the fill constant elsewhere. -/
def taken (ts : IVec S8192 32) (tab : FVec F S8193x128 .f32) : FVec F S8192x128 .f32 :=
  select (broadcastInDim S8192x128 ![0] bcast_S8192_S8192x128_0 (inRange ts))
    (Host.gather gather_S8193x128_S8192x1_S8192x128_1_0_n_n_0_1_1128 tab (startCol ts))
    (broadcastInDim S8192x128 ![] bcast_S_S8192x128 (constant (F := F) S_ .f32 0x7FC00000#32))

/-- The reference's result: the helper's, under a leading unit axis. -/
def refTerm (ts : IVec S8192 32) (tab : FVec F S8193x128 .f32) : FVec F S1x8192x128 .f32 :=
  broadcastInDim S1x8192x128 ![1, 2] bcast_S8192x128_S1x8192x128_1_2 (taken ts tab)

end Cert.ReferenceIdeal.RefValue

end
-- ==== Proof.RefRun.lean ====
/-
  The reference's run. Its program is a straight line of twenty-four host operations once its two helper
  functions are unfolded at their calls: the lookup helper's twenty-two (six before its call of the selection
  helper, sixteen after), the selection helper's one, and the final broadcast that adds the leading unit axis.
  Every weakly fair execution terminates; the result buffer then holds the operations' composed term of the two
  arguments' launch contents, and the arguments are unchanged.
-/
import proofs.«202643_g15668040696352_cont_week2b_341_8_alg».proof.Proof.RefTerm
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F]

/-- The program's twenty-four operations in order, the helpers' lines at their calls: the lookup helper's run
    into the buffers of its call's record, the selection helper's single line into the buffer of the nested
    record, the table the helper's first argument and the row numbers its second. -/
abbrev ops : List (HloOp τ sig (Elt F)) :=
  [ TRef.nullary main_call0.c (constantI S_ 32 0#32),
    TRef.unary main_call0.c main_call0.v0 (broadcastInDim S8192 ![] bcast_S_S8192),
    TRef.binary (.of main_arg0) main_call0.v0 main_call0.v1 (cmpi .slt),
    TRef.nullary main_call0.c_0 (constantI S_ 32 8193#32),
    TRef.unary main_call0.c_0 main_call0.v2 (broadcastInDim S8192 ![] bcast_S_S8192),
    TRef.binary (.of main_arg0) main_call0.v2 main_call0.v3 addi,
    TRef.ternary main_call0.v1 main_call0.v3 (.of main_arg0) main_call0.call0.v0 select,
    TRef.unary main_call0.call0.v0 main_call0.v5 (broadcastInDim S8192x1 ![0] bcast_S8192_S8192x1_0),
    TRef.nullary main_call0.c_1 (constantI S1 32 8192#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8193x128_S8192x1_S8192x128_1_0_n_n_0_1_1128 x i),
    TRef.unary main_call0.v12 main_call0.v14 (broadcastInDim S8192x128 ![0] bcast_S8192_S8192x128_0),
    TRef.nullary main_call0.cst (constant S_ .f32 0x7FC00000#32),
    TRef.unary main_call0.cst main_call0.v15 (broadcastInDim S8192x128 ![] bcast_S_S8192x128),
    TRef.ternary main_call0.v14 main_call0.v13 main_call0.v15 main_call0.v16 select,
    unary main_v0 main_v1 (broadcastInDim S1x8192x128 ![1, 2] bcast_S8192x128_S1x8192x128_1_2 : (⟨S8192x128, .f32⟩ : BufTy).Contents (Elt F) → (⟨S1x8192x128, .f32⟩ : BufTy).Contents (Elt F)) ]

-- twenty-four binds re-associated
set_option maxRecDepth 1024 in
/-- The program is that straight line: the helpers' definitions unfolded at their calls, both sides are one chain
    of steps once sequencing is reassociated. -/
theorem main_eq (c : Dev nD) : main (F := F) c = seq ops := by
  simp only [main, fn_take.body, fn_where.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches only buffers of the device's own references. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..⟩

/-- From any memory with zero counters every weakly fair execution of the program terminates, and every buffer of
    the device then holds the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- What the result buffer holds after the line, from any contents: the composed term of the two arguments'. The
    fold is unrolled and each operation's result read at its own buffer; what is left is the composed term in the
    operations' own spelling, which is the reference's term by unfolding its five definitions. -/
theorem out_eq (V : Valuation τ sig (Elt F)) :
    after ops V (main_v1 : DevRef τ sig)
      = refTerm (F := F) (V (main_arg0 : DevRef τ sig)) (V (main_arg1 : DevRef τ sig)) := by
  after_results
  rfl

/-- No operation writes the first argument's buffer. -/
theorem arg0_eq (V : Valuation τ sig (Elt F)) :
    after ops V (main_arg0 : DevRef τ sig) = V (main_arg0 : DevRef τ sig) := by
  after_results

/-- No operation writes the second argument's buffer. -/
theorem arg1_eq (V : Valuation τ sig (Elt F)) :
    after ops V (main_arg1 : DevRef τ sig) = V (main_arg1 : DevRef τ sig) := by
  after_results

/-- For any float values, from any memory with zero counters: every weakly fair execution of the program terminates
    with the result buffer at the reference's term of the two arguments' launch contents, and both arguments
    unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩
      (fun r => ∀ c : Dev nD,
        r.2.mem ((c.tc : Thread nD τ).loc main_v1) = refTerm (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c main_v1).trans (out_eq _), (h c main_arg0).trans (arg0_eq _),
      (h c main_arg1).trans (arg1_eq _)⟩)
    (run_main m ρ)

end Cert.ReferenceIdeal.RefValue

end
-- ==== Proof.RefGather.lean ====
/-
  The reference's composed function is the lookup of rows: when every row number is at most 8191 as a natural
  number, the wrap of negative numbers changes nothing, the range test passes on every row, the host's gather reads
  the table's row of that number (its clamp into [0, 8192] is the identity), and the fill constant is never selected.
-/
import proofs.«202643_g15668040696352_cont_week2b_341_8_alg».proof.Proof.RefTerm
import proofs.«202643_g15668040696352_cont_week2b_341_8_alg».proof.Proof.Spec
import Idealize.ShloMosaic.Lib.ValueIdx
import Idealize.ShloMosaic.Lib.Affine
import Idealize.ShloMosaic.PureOps.Reduce

noncomputable section

namespace Cert.ReferenceIdeal.RefValue

open Idealize.ShloMosaic Idealize.ShloMosaic.ValueIdx Cert.ReferenceIdeal Cert.ReferenceIdeal.Facts₀

variable {F : FTy → Type} [FloatOps F]

/-! ## Words -/

/-- A word that is at most 8191 as a natural number has that number as its signed value. -/
theorem toInt_of_le {v : BitVec 32} (h : v.toNat ≤ 8191) : v.toInt = (v.toNat : Int) :=
  BitVec.toInt_eq_toNat_of_lt (by omega)

/-- Such a word does not test negative. -/
theorem slt_zero_of_le {v : BitVec 32} (h : v.toNat ≤ 8191) : ¬IntOp.cmpi .slt v 0#32 = 1#1 := by
  rw [IntOp.cmpi_slt, toInt_of_le h, show (0#32 : BitVec 32).toInt = 0 from by decide]
  omega

/-- Such a word passes the test of lying in [0, 8192]. -/
theorem in_range_of_le {v : BitVec 32} (h : v.toNat ≤ 8191) :
    IntOp.andi (IntOp.cmpi .sge v 0#32) (IntOp.cmpi .sle v 8192#32) = 1#1 := by
  refine IntOp.andi_eq_one.2 ⟨?_, ?_⟩
  · rw [IntOp.cmpi_sge, toInt_of_le h, show (0#32 : BitVec 32).toInt = 0 from by decide]
    omega
  · rw [IntOp.cmpi_sle, toInt_of_le h, show (8192#32 : BitVec 32).toInt = 8192 from by decide]
    omega

/-! ## The helper's operations read at an index -/

/-- The wrap leaves a row number that is at most 8191 as it is. -/
theorem wrapped_apply (ts : IVec S8192 32) (i : S8192.Idx) (h : (ts i).toNat ≤ 8191) : wrapped ts i = ts i := by
  show Scalar.select (IntOp.cmpi .slt (ts i) 0#32) (IntOp.addi (ts i) 8193#32) (ts i) = ts i
  exact if_neg (slt_zero_of_le h)

/-- The column of start indices at row `r` holds the wrapped row number `r`. -/
theorem startCol_apply (ts : IVec S8192 32) (r : Fin 8192) (c : Fin 1) :
    startCol ts (ix2 r c) = wrapped ts (ix1 r) := by
  unfold startCol broadcastInDim
  refine congrArg (wrapped ts) ?_
  funext a
  match a with
  | ⟨0, _⟩ => rfl

/-- A left fold by `and` from 1 over words that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

/-- The range test passes on every row when every row number is at most 8191. -/
theorem inRange_apply (ts : IVec S8192 32) (h : ∀ i, (ts i).toNat ≤ 8191) (i : S8192.Idx) : inRange ts i = 1#1 := by
  unfold inRange
  rw [Host.reduce_eq_foldl]
  refine foldl_andi_of_all_one _ (fun k => ?_) _
  obtain ⟨r, c, rfl⟩ : ∃ (r : Fin 8192) (c : Fin 1), k = ix2 r c := ⟨k 0, k 1, eq_ix2 k⟩
  show IntOp.andi (IntOp.cmpi .sge (startCol ts (ix2 r c)) 0#32) (IntOp.cmpi .sle (startCol ts (ix2 r c)) 8192#32) = 1#1
  rw [startCol_apply, wrapped_apply ts _ (h _)]
  exact in_range_of_le (h _)

/-! ## The host's gather read at an index -/

/-- The gather of rows at `(r, j)`: the table at the row the start index `idx (r, 0)` names, read as a signed
    integer and clamped into [0, 8192], and column `j`. On the table's row axis (collapsed, the one the start
    index map names) the operand coordinate is the clamped start alone; on its column axis (the one offset axis,
    not named by the start index map) it is the result's column. -/
theorem gather_rows_apply {α : Type} {w : Nat} (tab : S8193x128.Idx → α) (idx : IVec S8192x1 w) (r : Fin 8192) (j : Fin 128) :
    Host.gather gather_S8193x128_S8192x1_S8192x128_1_0_n_n_0_1_1128 tab idx (ix2 r j)
      = tab (ix2 (⟨min (idx (ix2 r 0)).toInt.toNat 8192, by omega⟩ : Fin 8193) j) := by
  unfold Host.gather
  refine congrArg tab ?_
  funext a
  refine Fin.ext ?_
  match a with
  | ⟨0, _⟩ =>
    show gather_S8193x128_S8192x1_S8192x128_1_0_n_n_0_1_1128.start (ix2 r j) idx 0
        + gather_S8193x128_S8192x1_S8192x128_1_0_n_n_0_1_1128.batchCoord (ix2 r j) 0
        + gather_S8193x128_S8192x1_S8192x128_1_0_n_n_0_1_1128.offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8193x128_S8192x1_S8192x128_1_0_n_n_0_1_1128.startIndexMap from List.mem_singleton.mpr rfl)]
    have hsi : gather_S8193x128_S8192x1_S8192x128_1_0_n_n_0_1_1128.siIdx (ix2 r j)
        ⟨List.idxOf (0 : Fin 2) gather_S8193x128_S8192x1_S8192x128_1_0_n_n_0_1_1128.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show gather_S8193x128_S8192x1_S8192x128_1_0_n_n_0_1_1128.start (ix2 r j) idx 1
        + gather_S8193x128_S8192x1_S8192x128_1_0_n_n_0_1_1128.batchCoord (ix2 r j) 1
        + gather_S8193x128_S8192x1_S8192x128_1_0_n_n_0_1_1128.offCoord (ix2 r j) 1 = j.val
    rw [GatherDims.batchCoord_eq_zero _ _ _ List.not_mem_nil]
    have hst : gather_S8193x128_S8192x1_S8192x128_1_0_n_n_0_1_1128.start (ix2 r j) idx 1 = 0 := by
      unfold GatherDims.start
      exact dif_neg (by decide)
    rw [hst]
    simp only [Nat.add_zero, Nat.zero_add]
    rfl

/-! ## The reference's function is the lookup -/

/-- Under the leading unit axis the result at `(u, r, j)` is the helper's at `(r, j)`. -/
theorem refTerm_apply (ts : IVec S8192 32) (tab : FVec F S8193x128 .f32) (u : Fin 1) (r : Fin 8192) (j : Fin 128) :
    refTerm ts tab (ix3 u r j) = taken ts tab (ix2 r j) := by
  unfold refTerm broadcastInDim
  refine congrArg (taken ts tab) ?_
  funext a
  match a with
  | ⟨0, _⟩ => rfl
  | ⟨1, _⟩ => rfl

/-- When every row number is at most 8191, the helper's result at `(r, j)` is entry `j` of the table's row `ts r`. -/
theorem taken_apply (ts : IVec S8192 32) (tab : FVec F S8193x128 .f32) (h : ∀ i, (ts i).toNat ≤ 8191)
    (r : Fin 8192) (j : Fin 128) :
    taken ts tab (ix2 r j) = tab (ix2 (Cert.Spec.rowOfWord (ts (ix1 r))) j) := by
  show Scalar.select (broadcastInDim S8192x128 ![0] bcast_S8192_S8192x128_0 (inRange ts) (ix2 r j))
      (Host.gather gather_S8193x128_S8192x1_S8192x128_1_0_n_n_0_1_1128 tab (startCol ts) (ix2 r j)) _ = _
  have hc : broadcastInDim S8192x128 ![0] bcast_S8192_S8192x128_0 (inRange ts) (ix2 r j) = 1#1 := inRange_apply ts h _
  rw [hc, select_one, gather_rows_apply]
  refine congrArg (fun x => tab (ix2 x j)) (Fin.ext ?_)
  show min (startCol ts (ix2 r 0)).toInt.toNat 8192 = min (ts (ix1 r)).toNat 8192
  rw [startCol_apply, wrapped_apply ts _ (h _), toInt_of_le (h _), Int.toNat_natCast]

/-- THE REFERENCE IS THE LOOKUP: when every row number is at most 8191, entry `(u, r, j)` of the reference's result is
    entry `j` of the table's row `ts r`. -/
theorem refTerm_eq {F : FTy → Type} [FloatOps F] (ts : IVec S8192 32) (tab : FVec F S8193x128 .f32) (h : ∀ r, (ts r).toNat ≤ 8191) :
    refTerm (F := F) ts tab = Cert.Spec.gathered ts tab := by
  funext i
  obtain ⟨u, r, j, rfl⟩ : ∃ (u : Fin 1) (r : Fin 8192) (j : Fin 128), i = ix3 u r j := ⟨i 0, i 1, i 2, eq_ix3 i⟩
  rw [Cert.Spec.gathered_apply, refTerm_apply, taken_apply ts tab h]

end Cert.ReferenceIdeal.RefValue

end
-- ==== Proof.PreFacts.lean ====
/-
  What the precondition says of the row numbers: the precondition function is the conjunction of two tests, one of the
  table (every entry finite) and one of the row numbers (every word between 0 and 8191 as a signed integer). Where the
  function is all ones, the second test passed at every row, and a word between 0 and 8191 signed is at most 8191 as a
  natural number.
-/
import proofs.«202643_g15668040696352_cont_week2b_341_8_alg».proof.Pre_input_domain
import proofs.«202643_g15668040696352_cont_week2b_341_8_alg».proof.Proof.Gen.Pre_input_domain
import Idealize.ShloMosaic.Lib.ReduceAll
import Idealize.ShloMosaic.Lib.ValueIdx

namespace Cert.PreFacts

open Idealize.ShloMosaic Cert.Pre_input_domain

/-- A word that passes both signed tests, 0 ≤ v and v ≤ 8191, is at most 8191 as a natural number: a nonnegative
    signed word has its top bit clear, so its signed value is its natural one. -/
theorem toNat_le_of_signed_range {v : BitVec 32}
    (h : IntOp.andi (IntOp.cmpi .sge v 0#32) (IntOp.cmpi .sle v 8191#32) = 1#1) : v.toNat ≤ 8191 := by
  obtain ⟨h0, h1⟩ := IntOp.andi_eq_one.1 h
  rw [IntOp.cmpi_sge, show (0#32 : BitVec 32).toInt = 0 from by decide, BitVec.toInt_pos_iff] at h0
  rw [IntOp.cmpi_sle, show (8191#32 : BitVec 32).toInt = 8191 from by decide, BitVec.toInt_eq_toNat_of_lt h0] at h1
  omega

/-- Where the precondition function is all ones, every row number is at most 8191 as a natural number. -/
theorem ts_le {F : FTy → Type} [FloatOps F] (ts : IVec Cert.Pre_input_domain.S8192 32) (tab : FVec F Cert.Pre_input_domain.S8193x128 .f32)
    (h : Cert.Pre_input_domain.fn (F := F) ts tab = fun _ => 1#1) : ∀ r, (ts r).toNat ≤ 8191 := by
  intro r
  -- the scalar shape has one index, so the reduction over the whole list reads every row
  haveI : Subsingleton Cert.Pre_input_domain.S_.Idx := ⟨fun a b => funext fun d => d.elim0⟩
  have e := congrFun h ValueIdx.ix0
  dsimp only [Cert.Pre_input_domain.fn] at e
  obtain ⟨-, e2⟩ := IntOp.andi_eq_one.1 e
  exact toNat_le_of_signed_range (Host.reduce_andi_all _ _ _ _ _ e2 r)

end Cert.PreFacts
-- ==== Proof.lean ====
/-
  The certificate of the lookup kernel against its reference.
  Both programs compute one function of a list `ts` of 8192 row numbers and a table of 8193 rows of 128 numbers: the
  result's entry `(0, r, j)` is the table's entry `(ts r, j)` (`Cert.Spec.gathered`).
  The kernel: 32 tiles, tile `i` of SparseCore `c` working on entries [256 (2 i + c), 256 (2 i + c + 1)); it fetches its entries
  of the list, gathers the rows they name, and writes them to its rows of the result, waiting for each copy before the
  next. Under the precondition every entry of the list is in [0, 8191], so every gathered row exists, every copy is
  served and awaited, and the run ends with the list and the table unchanged and the result the looked-up rows: the
  same run read at words gives the word-level kernel's frame, read at the extended reals the idealized kernel's frame
  and its value.
  The reference: a negative row number is moved up by 8193 (none is negative), the moved number is tested to lie in
  [0, 8192] (all do, so the fill constant is never chosen), and the host gather clamps its start index into the table
  (no clamping occurs): it is the same function.
  The ideal pass rewrote nothing, so the kernel's idealization is its own text.
-/
import proofs.«202643_g15668040696352_cont_week2b_341_8_alg».proof.Defs
import proofs.«202643_g15668040696352_cont_week2b_341_8_alg».proof.Proof.Gen.Kernel
import proofs.«202643_g15668040696352_cont_week2b_341_8_alg».proof.Proof.Gen.Kernel.Skeleton
import proofs.«202643_g15668040696352_cont_week2b_341_8_alg».proof.Proof.Gen.KernelIdeal
import proofs.«202643_g15668040696352_cont_week2b_341_8_alg».proof.Proof.Gen.KernelIdeal.Skeleton
import proofs.«202643_g15668040696352_cont_week2b_341_8_alg».proof.Proof.Gen.ReferenceIdeal
import proofs.«202643_g15668040696352_cont_week2b_341_8_alg».proof.Proof.Gen.Pre_input_domain
import proofs.«202643_g15668040696352_cont_week2b_341_8_alg».proof.Proof.KI.Launch
import proofs.«202643_g15668040696352_cont_week2b_341_8_alg».proof.Proof.KB.Launch
import proofs.«202643_g15668040696352_cont_week2b_341_8_alg».proof.Proof.RefRun
import proofs.«202643_g15668040696352_cont_week2b_341_8_alg».proof.Proof.RefGather
import proofs.«202643_g15668040696352_cont_week2b_341_8_alg».proof.Proof.PreFacts
import Idealize.ShloMosaic.Adequacy
import Idealize.ShloMosaic.Init

noncomputable section

namespace Cert.Proof

open Idealize.ShloMosaic Idealize.SL.Sem

/-- The precondition bounds every entry of the list by 8191: what the word-level kernel's run asks of the launch memory, -/
theorem ok_words (m : (ℓ : Loc Cert.Kernel.nD Cert.Kernel.τ Cert.Kernel.sig) → Buf (Elt Bits) ℓ) (h : Cert.Pre_Kernel m) :
    Cert.Proof.KB.PreOK (F := Bits) m :=
  fun d j => Cert.PreFacts.ts_le _ _ (h d) j

/-- and the idealized kernel's. -/
theorem ok_ideal (m : (ℓ : Loc Cert.KernelIdeal.nD Cert.KernelIdeal.τ Cert.KernelIdeal.sig) → Buf (Elt Ideal) ℓ) (h : Cert.Pre_KernelIdeal m) :
    Cert.Proof.KI.PreOK (F := Ideal) m :=
  fun d j => Cert.PreFacts.ts_le _ _ (h d) j

theorem frame_kernel : Cert.frame_Kernel := fun m ρ hpre =>
  (θ_run Cert.Kernel.defs _ _).mono (fun _ h c => ⟨(h c).2.1, (h c).2.2⟩) (Cert.Proof.KB.run_main (F := Bits) m ρ (ok_words m hpre))

theorem frame_kernelIdeal : Cert.frame_KernelIdeal := fun m ρ hpre =>
  (θ_run Cert.KernelIdeal.defs _ _).mono (fun _ h c => ⟨(h c).2.1, (h c).2.2⟩) (Cert.Proof.KI.run_main (F := Ideal) m ρ (ok_ideal m hpre))

theorem frame_reference : Cert.frame_ReferenceIdeal := fun m ρ _ =>
  (θ_run Cert.ReferenceIdeal.defs _ _).mono (fun _ h c => (h c).2) (Cert.ReferenceIdeal.RefValue.run (F := Ideal) m ρ)

/-- The ideal pass rewrote no operation of the kernel. -/
theorem preserves : Cert.preserves_Kernel_KernelIdeal := trivial

/-- From memories agreeing on the list and the table both programs end with the looked-up rows of that list in
    that table: the kernel by its run, the reference because its composed operations are that function wherever every
    entry of the list is in [0, 8191]. -/
theorem algebraic : Cert.algebraic_KernelIdeal_ReferenceIdeal := by
  intro m ρ m' ρ' hpre hagree
  refine ⟨fun c => Cert.Proof.KI.G m c,
    (θ_run Cert.KernelIdeal.defs _ _).mono (fun _ h c => h c) (Cert.Proof.KI.run_main (F := Ideal) m ρ (ok_ideal m hpre)), ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.ReferenceIdeal.RefValue.refTerm_eq _ _ (fun r => ok_ideal m hpre c r)

theorem claim : Cert.Claim :=
  ⟨Cert.Kernel.Gen.facts, Cert.KernelIdeal.Gen.facts, Cert.ReferenceIdeal.Gen.facts, Cert.Pre_input_domain.Gen.facts,
    frame_kernel, frame_kernelIdeal, frame_reference, preserves, algebraic⟩

end Cert.Proof

end
